-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x512x1024 : Shape := ⟨3, ![32, 512, 1024]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x512x1024 : S_.BroadcastsInDim S32x512x1024 (![] : Fin 0 → Fin S32x512x1024.rank)
  reducesTo_S32x512x1024_S_d0_1_2 : S32x512x1024.ReducesTo [0, 1, 2] S_

variable [Facts]

def fn {F : FTy → Type} [FloatOps F] (main_arg0 : FVec F S32x2048x512 .f32) (main_arg1 : FVec F S32x512x1024 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x2048x512 : Shape := ⟨3, ![32, 2048, 512]⟩
abbrev S32x512x1024 : Shape := ⟨3, ![32, 512, 1024]⟩
abbrev S32x2048x1024 : Shape := ⟨3, ![32, 2048, 1024]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32x2048x512, .f32⟩
  | .hbm, ⟨1, _⟩ => ⟨S32x512x1024, .f32⟩
  | .hbm, ⟨2, _⟩ => ⟨S32x2048x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S512x1024, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x2048x512.size a
  hwx0_0 : ∀ i : grid0.Coords, EltTy.bits .f32 = 32 ∨ (Rect.block (s := S32x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x2048x1024.size a
  hwx0_2 : ∀ i : grid0.Coords, EltTy.bits .f32 = 32 ∨ (Rect.block (s := S32x2048x1024) S1x1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x512x1024 : Shape := ⟨3, ![32, 512, 1024]⟩
abbrev S_ : Shape := ⟨0, ![]⟩
abbrev S32x2048 : Shape := ⟨2, ![32, 2048]⟩
abbrev S32x2048x1 : Shape := ⟨3, ![32, 2048, 1]⟩
abbrev S32x2048x1024 : Shape := ⟨3, ![32, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x512x1024, .f32⟩
  | .hbm, ⟨2, _⟩ => ⟨S_, .f32⟩
  | .hbm, ⟨3, _⟩ => ⟨S32x2048, .f32⟩
  | .hbm, ⟨4, _⟩ => ⟨S_, .f32⟩
  | .hbm, ⟨5, _⟩ => ⟨S32x2048, .f32⟩
  | .hbm, ⟨6, _⟩ => ⟨S32x2048, .f32⟩
  | .hbm, ⟨7, _⟩ => ⟨S32x2048x1, .f32⟩
  | .hbm, ⟨8, _⟩ => ⟨S32x2048x512, .f32⟩
  | .hbm, ⟨9, _⟩ => ⟨S32x2048x512, .f32⟩
  | .hbm, ⟨10, _⟩ => ⟨S32x2048x512, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S32x2048x512, .f32⟩
  | .hbm, ⟨15, _⟩ => ⟨S32x2048x512, .f32⟩
  | .hbm, ⟨16, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S32x2048x512_S32x2048_d2 : S32x2048x512.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  dot_S32x2048x512_S32x512x1024_S32x2048x1024_2_1_1_2_0_0_wf : DotDims.WF S32x2048x512 S32x512x1024 S32x2048x1024 [2] [1] [1] [2] [0] [0]

variable [Facts₀]

def dot_S32x2048x512_S32x512x1024_S32x2048x1024_2_1_1_2_0_0 : DotDims S32x2048x512 S32x512x1024 S32x2048x1024 where
  lhsContracting := [2]
  rhsContracting := [1]
  lhsNonContracting := [1]
  rhsNonContracting := [2]
  lhsBatch := [0]
  rhsBatch := [0]
  wf := dot_S32x2048x512_S32x512x1024_S32x2048x1024_2_1_1_2_0_0_wf

class Facts : Prop extends Facts₀ where

variable [Facts]
-- ==== Proof.Pieces.lean ====
import proofs.«165536_j17746804867735_2_alg».proof.Proof.Gen.KernelIdeal.Frame
import Idealize.ShloMosaic.Lib.Pipeline.Value
import Idealize.ShloMosaic.Lib.Tactic

/-!
  What one grid point leaves behind, as values. At a point that opens a batch (the tile index is zero) the body first
  stores the narrowed encodings slab into the carried scratch, and the attention block it then stores is computed
  from the similarity block and that freshly stored slab; at any other point the scratch is left as it was and the
  block is computed from the similarity block and whatever the scratch held.
-/

noncomputable section

open Idealize.ShloMosaic Idealize.ShloMosaic.TcCoe Idealize.SL.Sem

namespace Cert.KernelIdeal.Pieces
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that opens a batch leaves the narrowed encodings slab in the scratch. -/
theorem scratch_A (c : Dev nD) (i : grid0.Coords) (a2 : Memref sig .tc .vmem S1x1024x512 .f32) (h2 : a2.IsWhole)
    (a3 : Memref sig .tc .vmem S1x512x1024 .f32) (h3 : a3.IsWhole) (a4 : Memref sig .tc .vmem S1x1024x1024 .f32) (h4 : a4.IsWhole)
    (a5 : Memref sig .tc .vmem S512x1024 .bf16) (h5 : a5.IsWhole) (hc : cond0_0 i)
    (x0 : Vec F S1x1024x512 .f32) (x1 : Vec F S1x512x1024 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x1024) hz3]

/-- A point that does not open a batch leaves the scratch as it found it. -/
theorem scratch_B (c : Dev nD) (i : grid0.Coords) (a2 : Memref sig .tc .vmem S1x1024x512 .f32) (h2 : a2.IsWhole)
    (a3 : Memref sig .tc .vmem S1x512x1024 .f32) (h3 : a3.IsWhole) (a4 : Memref sig .tc .vmem S1x1024x1024 .f32) (h4 : a4.IsWhole)
    (a5 : Memref sig .tc .vmem S512x1024 .bf16) (h5 : a5.IsWhole) (hc : ¬cond0_0 i)
    (x0 : Vec F S1x1024x512 .f32) (x1 : Vec F S1x512x1024 .f32) (xs : Vec F S512x1024 .bf16) :
    sout0_B_0 c i a2 h2 a3 h3 a4 h4 a5 h5 hc x0 x1 xs = xs := rfl

/-- A point that does not open a batch stores the attention block of its similarity block and the scratch it found. -/
theorem out_B (c : Dev nD) (i : grid0.Coords) (a2 : Memref sig .tc .vmem S1x1024x512 .f32) (h2 : a2.IsWhole)
    (a3 : Memref sig .tc .vmem S1x512x1024 .f32) (h3 : a3.IsWhole) (a4 : Memref sig .tc .vmem S1x1024x1024 .f32) (h4 : a4.IsWhole)
    (a5 : Memref sig .tc .vmem S512x1024 .bf16) (h5 : a5.IsWhole) (hc : ¬cond0_0 i)
    (x0 : Vec F S1x1024x512 .f32) (x1 : Vec F S1x512x1024 .f32) (xs : Vec F S512x1024 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz3]
  simp only [View.readAt_eq_ld, h2.read_unread, h5.read_unread, View.ld_unit_zero (S := S1x1024x512) hz3, View.ld_unit_zero (S := S512x1024) hz2]

/-- A point that opens a batch stores the attention block of its similarity block and the slab it has just narrowed. -/
theorem out_A (c : Dev nD) (i : grid0.Coords) (a2 : Memref sig .tc .vmem S1x1024x512 .f32) (h2 : a2.IsWhole)
    (a3 : Memref sig .tc .vmem S1x512x1024 .f32) (h3 : a3.IsWhole) (a4 : Memref sig .tc .vmem S1x1024x1024 .f32) (h4 : a4.IsWhole)
    (a5 : Memref sig .tc .vmem S512x1024 .bf16) (h5 : a5.IsWhole) (hc : cond0_0 i)
    (x0 : Vec F S1x1024x512 .f32) (x1 : Vec F S1x512x1024 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3, View.readCov_unit_zero (S := S512x1024) _ hz2]
  simp only [View.readAt_eq_ld, h2.read_unread, h3.read_unread, View.ld_unit_zero (S := S1x1024x512) hz3, View.ld_unit_zero (S := S1x512x1024) hz3]

end Cert.KernelIdeal.Pieces
end
-- ==== Proof.Spec.lean ====
import Idealize.ShloMosaic.PureOps.Ideal
import Idealize.ShloMosaic.PureOps.Ideal.Laws
import Idealize.ShloMosaic.Lib.ValueIdx

/-!
  The specification. For one row of similarities `f : Fin 512 → EReal` and one column of encodings
  `g : Fin 512 → EReal`, the attended value is
  `∑ k, (exp (f k - M) / ∑ k', exp (f k' - M)) * g k` with `M` the maximum of the row (folded from `-∞`).
  The result array at `(b, r, h)` is that value of row `(b, r, ·)` of the similarities and column `(b, ·, h)` of the
  encodings. Both programs compute exactly this term: they differ only in how the array is cut into blocks.
-/

noncomputable section

namespace Cert.Attn

open Idealize.ShloMosaic Idealize.ShloMosaic.ValueIdx

/-- The maximum of a row, folded from the pattern of `-∞`. -/
def rowMax (f : Fin 512 → EReal) : EReal :=
  (Finset.univ : Finset (Fin 512)).fold max (Ideal.ofBits .f32 0xFF800000#32) f

/-- The shifted exponential of one entry of a row. -/
def expo (f : Fin 512 → EReal) (k : Fin 512) : EReal := Ideal.exp (f k - rowMax f)

/-- The softmax weight of one entry of a row. -/
def weight (f : Fin 512 → EReal) (k : Fin 512) : EReal := Ideal.div (expo f k) (∑ k' : Fin 512, expo f k')

/-- The attended value of a row of similarities against a column of encodings. -/
def attnRow (f g : Fin 512 → EReal) : EReal := ∑ k : Fin 512, weight f k * g k

/-- The whole result array as one function of the two argument arrays. -/
def G (sim : (⟨3, ![32, 2048, 512]⟩ : Shape).Idx → EReal) (q : (⟨3, ![32, 512, 1024]⟩ : Shape).Idx → EReal) :
    (⟨3, ![32, 2048, 1024]⟩ : Shape).Idx → EReal :=
  fun i => attnRow (fun k => sim (ix3 (i 0) (i 1) k)) (fun k => q (ix3 (i 0) k (i 2)))

/-- The result array at an index given by coordinates. -/
theorem G_apply (sim : (⟨3, ![32, 2048, 512]⟩ : Shape).Idx → EReal) (q : (⟨3, ![32, 512, 1024]⟩ : Shape).Idx → EReal)
    (b : Fin 32) (r : Fin 2048) (h : Fin 1024) :
    G sim q (ix3 b r h) = attnRow (fun k => sim (ix3 b r k)) (fun k => q (ix3 b k h)) := rfl

/-- The maximum of the initial value and a fold of `max` from it is the fold: the fold is above its initial value. -/
theorem max_init_fold (init : EReal) (f : Fin 512 → EReal) :
    max init ((Finset.univ : Finset (Fin 512)).fold max init f) = (Finset.univ : Finset (Fin 512)).fold max init f :=
  max_eq_right ((Finset.le_fold_max init).mpr (Or.inl le_rfl))

end Cert.Attn

end
-- ==== Proof.LibRowSum.lean ====
/-
  Rows of a matrix summed along the lanes, and the column that sum is kept as.

  A reduction of an [a, b] array along its second axis is read at a row as the sum of that row's b entries, both
  when a vector unit does it (a multi-reduction with add) and when the host does it (a reduce with an add body from a zero
  initial value).  The result, a vector of a entries, is usually kept as a column [a, 1] and spread back over b lanes;
  the column forms of the layout operations are read here at an index given by coordinates: a vector [a] cast or
  broadcast to the column [a, 1], and the column [a, 1] broadcast to [a, b].  Every lemma is over arbitrary extents and
  mentions no program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowSum

open Idealize.ShloMosaic Idealize.ShloMosaic.ValueIdx

variable {α : Type}

/-! ## The column forms of the layout operations -/

/-- A vector [a] cast to the column [a, 1] reads, at (i, u), the vector at i: the two row-major positions are
    i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] into the column [a, 1] along axis 0 reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of a column [a, 1] to [a, b] along both axes reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum -/

/-- The source index a lane reduction reads for row r and lane k is (r, k). -/
theorem lift_lane {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A vector unit's add reduction of an [a, b] array along the lanes, read at row r at the ideal values, is the sum of the
    row's entries.  The accumulator's word is any word that is the sum's neutral one. -/
theorem multiReduction_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_lane h r k)

/-- The host's reduce of an [a, b] array along the lanes with an add body, read at row r at the ideal values, is the
    initial value plus the sum of the row's entries. -/
theorem hostReduceAdd_lane_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

end Cert.LibRowSum

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.PayloadAt.lean ====
import proofs.«165536_j17746804867735_2_alg».proof.Proof.Gen.KernelIdeal.Skeleton
import proofs.«165536_j17746804867735_2_alg».proof.Proof.Spec
import proofs.«165536_j17746804867735_2_alg».proof.Proof.LibRowSum
import proofs.«165536_j17746804867735_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

/-!
  The body's arithmetic read at an index, on the extended reals. The narrowed slab at `(k, h)` is the loaded slab at
  `(0, k, h)` (narrowing changes no value). The stored block at `(0, r, h)` is the attended value of row `r` of the
  loaded similarity block against column `h` of the matrix it is multiplied with: the row maximum, the shifted
  exponentials, their sum and the quotient are all taken within row `r`, and the product contracts over the 512 entries
  of that row.
-/

noncomputable section

open scoped BigOperators

namespace Cert.KernelIdeal.PayloadAt

open Cert.KernelIdeal Cert.KernelIdeal.Gen Idealize.ShloMosaic Idealize.ShloMosaic.ValueIdx Cert.Attn

/-- The narrowed slab at `(k, h)` is the loaded slab at `(0, k, h)`. -/
theorem slab_apply (v20 : Vec Ideal S1x512x1024 .f32) (k : Fin 512) (h : Fin 1024) :
    k0_pay1 (F := Ideal) v20 (ix2 k h) = v20 (ix3 (0 : Fin 1) k h) := by
  unfold k0_pay1
  rw [shapeCast_self]
  exact shapeCast_1ab_ab_apply v20 _ k h

/-- A lane maximum of a block, at row `r`, is the row's maximum. -/
theorem rowmax_apply (v4 : FVec Ideal S1024x512 .f32) (hred : S1024x512.Reduces [1] S1024) (hφ : FKind.Formats .f32)
    (hacc : (0xFF800000#32 : BitVec 32) = FKind.maximumf.neutral .f32 hφ) (r : Fin 1024) :
    multiReduction .maximumf [1] S1024 v4 0xFF800000#32 hred hφ hacc (ix1 r) = rowMax (fun k => v4 (ix2 r k)) := by
  refine (Ideal.multiReduction_maximumf_single v4 _ hred hφ hacc (ix1 r)).trans ?_
  unfold rowMax
  refine congrArg (fun f => (Finset.univ : Finset (Fin 512)).fold max (Ideal.ofBits .f32 0xFF800000#32) f) ?_
  exact funext fun k => congrArg v4 (Cert.LibRowSum.lift_lane hred r k)

/-- The row maxima, kept as a column and spread back over the lanes. -/
def maxCol (v4 : FVec Ideal S1024x512 .f32) : FVec Ideal S1024x512 .f32 :=
  broadcastTo S1024x512 (shapeCast S1024x1 (multiReduction .maximumf [1] S1024 v4 0xFF800000#32 reduces_S1024x512_S1024 (.inl rfl) rfl)
    shapeCasts_S1024_S1024x1) broadcasts_S1024x1_S1024x512

/-- The shifted exponentials of a block. -/
def expBlock (v4 : FVec Ideal S1024x512 .f32) : FVec Ideal S1024x512 .f32 := exp (subf v4 (maxCol v4))

/-- The row sums of the exponentials, kept as a column and spread back over the lanes. -/
def sumCol (v4 : FVec Ideal S1024x512 .f32) : FVec Ideal S1024x512 .f32 :=
  broadcastTo S1024x512 (shapeCast S1024x1 (multiReduction .add [1] S1024 (expBlock v4) 0x00000000#32 reduces_S1024x512_S1024 (.inl rfl) rfl)
    shapeCasts_S1024_S1024x1) broadcasts_S1024x1_S1024x512

/-- The softmax weights of a block. -/
def weightBlock (v4 : FVec Ideal S1024x512 .f32) : FVec Ideal S1024x512 .f32 := divf (expBlock v4) (sumCol v4)

theorem maxCol_apply (v4 : FVec Ideal S1024x512 .f32) (r : Fin 1024) (k : Fin 512) :
    maxCol v4 (ix2 r k) = rowMax (fun k => v4 (ix2 r k)) :=
  (Cert.LibRowSum.broadcastTo_a1_ab_apply _ _ r k).trans
    ((Cert.LibRowSum.shapeCast_a_a1_apply _ _ r (0 : Fin 1)).trans (rowmax_apply v4 _ _ _ r))

theorem expBlock_apply (v4 : FVec Ideal S1024x512 .f32) (r : Fin 1024) (k : Fin 512) :
    expBlock v4 (ix2 r k) = expo (fun k => v4 (ix2 r k)) k := by
  show Ideal.exp (v4 (ix2 r k) - maxCol v4 (ix2 r k)) = _
  rw [maxCol_apply]
  rfl

theorem sumCol_apply (v4 : FVec Ideal S1024x512 .f32) (r : Fin 1024) (k : Fin 512) :
    sumCol v4 (ix2 r k) = ∑ k' : Fin 512, expo (fun k => v4 (ix2 r k)) k' :=
  (Cert.LibRowSum.broadcastTo_a1_ab_apply _ _ r k).trans
    ((Cert.LibRowSum.shapeCast_a_a1_apply _ _ r (0 : Fin 1)).trans
      ((Cert.LibRowSum.multiReduction_lane_apply (expBlock v4) _ _ _ _ r).trans
        (Finset.sum_congr rfl fun k' _ => expBlock_apply v4 r k')))

theorem weightBlock_apply (v4 : FVec Ideal S1024x512 .f32) (r : Fin 1024) (k : Fin 512) :
    weightBlock v4 (ix2 r k) = weight (fun k => v4 (ix2 r k)) k := by
  show Ideal.div (expBlock v4 (ix2 r k)) (sumCol v4 (ix2 r k)) = _
  rw [expBlock_apply, sumCol_apply]
  rfl

/-- The stored block is the product of the narrowed weights of the loaded similarity block with the second operand,
    recast to the block's shape. -/
theorem pay2_eq (v3 : Vec Ideal S1x1024x512 .f32) (v15 : FVec Ideal S512x1024 .bf16) :
    k0_pay2 (F := Ideal) v3 v15
      = shapeCast S1x1024x1024 (matmul dot_S1024x512_S512x1024_S1024x1024_1_0_0_1_n_n none
          (truncf .bf16 (weightBlock (shapeCast S1024x512 v3 shapeCasts_S1x1024x512_S1024x512)) bitsLt_bf16_f32) v15
          (constant S1024x1024 .f32 0x00000000#32)) shapeCasts_S1024x1024_S1x1024x1024 := rfl

/-- The product's operand indices, coordinate by coordinate. -/
theorem lhs0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The stored block at `(0, r, h)`: the attended value of row `r` of the similarity block against column `h` of the
    second operand. -/
theorem block_apply (v3 : Vec Ideal S1x1024x512 .f32) (v15 : FVec Ideal S512x1024 .bf16) (r h : Fin 1024) :
    k0_pay2 (F := Ideal) v3 v15 (ix3 (0 : Fin 1) r h)
      = attnRow (fun k => v3 (ix3 (0 : Fin 1) r k)) (fun k => v15 (ix2 k h)) := by
  rw [pay2_eq]
  refine (shapeCast_ab_1ab_apply _ _ (0 : Fin 1) r h).trans ?_
  refine (Ideal.matmul_constant_zero_apply _ none _ v15 (ix2 r h)).trans ?_
  refine (Cert.LibDotSum.plain dot_S1024x512_S512x1024_S1024x1024_1_0_0_1_n_n rfl rfl lhs0 lhs1 rhs0 rhs1
    (fun a b => (truncf .bf16 (weightBlock (shapeCast S1024x512 v3 shapeCasts_S1x1024x512_S1024x512)) bitsLt_bf16_f32 : FVec Ideal S1024x512 .bf16) a * v15 b) (ix2 r h)).trans ?_
  unfold attnRow
  refine Finset.sum_congr rfl fun k _ => ?_
  show weightBlock (shapeCast S1024x512 v3 shapeCasts_S1x1024x512_S1024x512) (ix2 r k) * v15 (ix2 k h) = _
  rw [weightBlock_apply]
  have e : (fun k => shapeCast S1024x512 v3 shapeCasts_S1x1024x512_S1024x512 (ix2 r k)) = fun k => v3 (ix3 (0 : Fin 1) r k) :=
    funext fun k' => shapeCast_1ab_ab_apply v3 _ r k'
  rw [e]

end Cert.KernelIdeal.PayloadAt

end
-- ==== Proof.KernelValue.lean ====
import proofs.«165536_j17746804867735_2_alg».proof.Proof.Gen.KernelIdeal.Value
import proofs.«165536_j17746804867735_2_alg».proof.Proof.Pieces
import proofs.«165536_j17746804867735_2_alg».proof.Proof.PayloadAt
import proofs.«165536_j17746804867735_2_alg».proof.Proof.Spec
import Idealize.ShloMosaic.Lib.Pipeline.Value
import Idealize.ShloMosaic.Lib.ValueIdx

/-!
  The kernel's result array is the specification of its two argument arrays.

  The 64 grid points are the pairs (batch `b = t / 2`, row tile `t % 2`), in that order. Point `t` reads rows
  `(t % 2) * 1024 …` of batch `b` of the similarities, and the whole encodings slab of batch `b`; it writes the same rows of
  batch `b` of the result. The scratch carried between points holds, after point `t`, the encodings slab of batch `t / 2`:
  an even point stores it, and the odd point after it belongs to the same batch and leaves it alone. Hence every point
  multiplies its softmax weights with the slab of its own batch, each written block is a block of the specification,
  and the blocks cover the result array.
-/

noncomputable section

open scoped BigOperators

namespace Cert.KernelIdeal.AttnValue

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The printed index maps over the grid: every window's batch index is `t / 2`; the similarities' and the result's row
    tile is `t % 2`; every other block index is zero. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0)

theorem N64 : cfg0.N = 64 := N_0

/-- The batch of a grid point. -/
def bat (t : Fin cfg0.N) : Fin 32 := ⟨t.val / 2, by have := t.isLt; have h := N64; omega⟩

/-- The row of the array that row `r` of point `t`'s tile is. -/
def row (t : Fin cfg0.N) (r : Fin 1024) : Fin 2048 := ⟨t.val % 2 * 1024 + r.val, by have := r.isLt; omega⟩

/-- The similarity block of a point, read at `(0, r, k)`: the array at the point's batch and row. -/
theorem sim_blk (c : Dev nD) (t : Fin cfg0.N) (r : Fin 1024) (k : Fin 512) :
    (iblk m c 0 t : Vec Ideal S1x1024x512 .f32) (ix3 (0 : Fin 1) r k) = V m c main_arg0 (ix3 (bat t) (row t r) k) := by
  obtain ⟨e0, e1, e2, -⟩ := idx_facts t
  show V m c main_arg0 (((cfg0.win 0).blk t).view.emb (ix3 (0 : Fin 1) r k)) = _
  refine congrArg (V m c main_arg0) (funext fun a => Fin.ext ?_)
  match a with
  | ⟨0, _⟩ => show win0_0.index t (0 : Fin 3) * 1 + 1 * 0 = t.val / 2; omega
  | ⟨1, _⟩ => show win0_0.index t (1 : Fin 3) * 1024 + 1 * r.val = t.val % 2 * 1024 + r.val; omega
  | ⟨2, _⟩ => show win0_0.index t (2 : Fin 3) * 512 + 1 * k.val = k.val; omega

/-- The encodings block of a point, read at `(0, k, h)`: the array at the point's batch. -/
theorem enc_blk (c : Dev nD) (t : Fin cfg0.N) (k : Fin 512) (h : Fin 1024) :
    (iblk m c 1 t : Vec Ideal S1x512x1024 .f32) (ix3 (0 : Fin 1) k h) = V m c main_arg1 (ix3 (bat t) k h) := by
  obtain ⟨-, -, -, e0, e1, e2, -⟩ := idx_facts t
  show V m c main_arg1 (((cfg0.win 1).blk t).view.emb (ix3 (0 : Fin 1) k h)) = _
  refine congrArg (V m c main_arg1) (funext fun a => Fin.ext ?_)
  match a with
  | ⟨0, _⟩ => show win0_1.index t (0 : Fin 3) * 1 + 1 * 0 = t.val / 2; omega
  | ⟨1, _⟩ => show win0_1.index t (1 : Fin 3) * 512 + 1 * k.val = k.val; omega
  | ⟨2, _⟩ => show win0_1.index t (2 : Fin 3) * 1024 + 1 * h.val = h.val; omega

/-- What a point stores, from what it reads: if the similarity block is rows `ρ r` of batch `b` and the second operand is
    the encodings slab of batch `b`, the stored block at `(0, r, h)` is the specification at `(b, ρ r, h)`. -/
theorem point_value (sim : (⟨3, ![32, 2048, 512]⟩ : Shape).Idx → EReal) (q : (⟨3, ![32, 512, 1024]⟩ : Shape).Idx → EReal)
    (x0 : Vec Ideal S1x1024x512 .f32) (xs : FVec Ideal S512x1024 .bf16) (b : Fin 32) (rw_ : Fin 1024 → Fin 2048)
    (h0 : ∀ r k, x0 (ix3 (0 : Fin 1) r k) = sim (ix3 b (rw_ r) k))
    (hs : ∀ k h, xs (ix2 k h) = q (ix3 b k h)) (r h : Fin 1024) :
    k0_pay2 (F := Ideal) x0 xs (ix3 (0 : Fin 1) r h) = G sim q (ix3 b (rw_ r) h) := by
  rw [PayloadAt.block_apply, G_apply]
  have e0 : (fun k => x0 (ix3 (0 : Fin 1) r k)) = fun k => sim (ix3 b (rw_ r) k) := funext fun k => h0 r k
  have es : (fun k => xs (ix2 k h)) = fun k => q (ix3 b k h) := funext fun k => hs k h
  rw [e0, es]

/-- After an even point the scratch holds the encodings slab of the point's batch. -/
theorem scratch_even (c : Dev nD) (t : Fin cfg0.N) (h0 : t.val % 2 = 0) (k : Fin 512) (h : Fin 1024) :
    ((outsAt0 m c t.val t.isLt).2 : FVec Ideal S512x1024 .bf16) (ix2 k h) = V m c main_arg1 (ix3 (bat t) k h) := by
  rw [outsAt0_A m c t h0]
  dsimp only
  refine (congrFun (Pieces.scratch_A c (grid0.coords t) (ms0_0 t) (hs0_0 t) (ms0_1 t) (hs0_1 t) (ms0_2 t) (hs0_2 t) scM0_0
    (Memref.isWhole_whole _) ((hcond0_0 t).mpr h0) (iblk m c 0 t) (iblk m c 1 t)) (ix2 k h)).trans ?_
  exact (PayloadAt.slab_apply (iblk m c 1 t) k h).trans (enc_blk m c t k h)

/-- After any point the scratch holds the encodings slab of the point's batch: an odd point keeps what the even point
    before it, of the same batch, stored. -/
theorem scratch_apply (c : Dev nD) (t : Fin cfg0.N) (k : Fin 512) (h : Fin 1024) :
    ((outsAt0 m c t.val t.isLt).2 : FVec Ideal S512x1024 .bf16) (ix2 k h) = V m c main_arg1 (ix3 (bat t) k h) := by
  by_cases h0 : t.val % 2 = 0
  · exact scratch_even m c t h0 k h
  · rw [outsAt0_B m c t h0]
    dsimp only
    have hlt : t.val - 1 < cfg0.N := Nat.lt_of_le_of_lt (Nat.sub_le _ _) t.isLt
    show ((outsAt0 m c (t.val - 1) hlt).2 : FVec Ideal S512x1024 .bf16) (ix2 k h) = _
    have hp : (⟨t.val - 1, hlt⟩ : Fin cfg0.N).val % 2 = 0 := by dsimp only; omega
    refine (scratch_even m c ⟨t.val - 1, hlt⟩ hp k h).trans ?_
    have eb : bat ⟨t.val - 1, hlt⟩ = bat t := Fin.ext (by unfold bat; dsimp only; omega)
    rw [eb]

/-- What the result's staging buffer holds after point `t`, at `(0, r, h)`: the specification at the point's batch and row. -/
theorem out_apply (c : Dev nD) (t : Fin cfg0.N) (r h : Fin 1024) :
    ((outsAt0 m c t.val t.isLt).1 : Vec Ideal S1x1024x1024 .f32) (ix3 (0 : Fin 1) r h)
      = G (V m c main_arg0) (V m c main_arg1) (ix3 (bat t) (row t r) h) := by
  by_cases h0 : t.val % 2 = 0
  · rw [outsAt0_A m c t h0]
    dsimp only
    refine (congrFun (Pieces.out_A c (grid0.coords t) (ms0_0 t) (hs0_0 t) (ms0_1 t) (hs0_1 t) (ms0_2 t) (hs0_2 t) scM0_0
      (Memref.isWhole_whole _) ((hcond0_0 t).mpr h0) (iblk m c 0 t) (iblk m c 1 t)) (ix3 (0 : Fin 1) r h)).trans ?_
    exact point_value (V m c main_arg0) (V m c main_arg1) (iblk m c 0 t) (k0_pay1 (F := Ideal) (iblk m c 1 t)) (bat t) (row t)
      (fun r k => sim_blk m c t r k) (fun k h => (PayloadAt.slab_apply (iblk m c 1 t) k h).trans (enc_blk m c t k h)) r h
  · rw [outsAt0_B m c t h0]
    dsimp only
    have hlt : t.val - 1 < cfg0.N := Nat.lt_of_le_of_lt (Nat.sub_le _ _) t.isLt
    refine (congrFun (Pieces.out_B c (grid0.coords t) (ms0_0 t) (hs0_0 t) (ms0_1 t) (hs0_1 t) (ms0_2 t) (hs0_2 t) scM0_0
      (Memref.isWhole_whole _) (fun hc => h0 ((hcond0_0 t).mp hc)) (iblk m c 0 t) (iblk m c 1 t) (outsAt0 m c (t.val - 1) hlt).2)
      (ix3 (0 : Fin 1) r h)).trans ?_
    have eb : bat ⟨t.val - 1, hlt⟩ = bat t := Fin.ext (by unfold bat; dsimp only; omega)
    exact point_value (V m c main_arg0) (V m c main_arg1) (iblk m c 0 t) (outsAt0 m c (t.val - 1) hlt).2 (bat t) (row t)
      (fun r k => sim_blk m c t r k) (fun k h => (scratch_apply m c ⟨t.val - 1, hlt⟩ k h).trans (by rw [eb])) r h

/-- Where point `t`'s block of the result array sits: index `(0, r, h)` of the block is `(t / 2, (t % 2) * 1024 + r, h)`. -/
theorem out_emb (t : Fin cfg0.N) (r h : Fin 1024) :
    ((cfg0.win 2).blk t).view.emb (ix3 (0 : Fin 1) r h) = ix3 (bat t) (row t r) h := by
  obtain ⟨-, -, -, -, -, -, e0, e1, e2⟩ := idx_facts t
  refine funext fun a => Fin.ext ?_
  match a with
  | ⟨0, _⟩ => show win0_2.index t (0 : Fin 3) * 1 + 1 * 0 = t.val / 2; omega
  | ⟨1, _⟩ => show win0_2.index t (1 : Fin 3) * 1024 + 1 * r.val = t.val % 2 * 1024 + r.val; omega
  | ⟨2, _⟩ => show win0_2.index t (2 : Fin 3) * 1024 + 1 * h.val = h.val; omega

/-- What point `t` writes back is block `t` of the specification of the argument arrays. -/
theorem flushed_eq (c : Dev nD) (t : Fin cfg0.N) :
    (dats m 0 c).flushed 2 t = ((cfg0.win 2).blk t).view.read (Elt Ideal) (G (V m c main_arg0) (V m c main_arg1)) := by
  rw [Value.flushed2]
  funext y
  show ((outsAt0 m c t.val t.isLt).1 : Vec Ideal S1x1024x1024 .f32) y = G (V m c main_arg0) (V m c main_arg1) (((cfg0.win 2).blk t).view.emb y)
  obtain ⟨u, r, h, rfl⟩ : ∃ (u : Fin 1) (r : Fin 1024) (h : Fin 1024), y = ix3 u r h := ⟨y 0, y 1, y 2, eq_ix3 y⟩
  obtain rfl : u = 0 := Subsingleton.elim _ _
  rw [out_emb]
  exact out_apply m c t r h

/-- An index of the result array is in point `t`'s block iff each coordinate is in the block's range on its axis. -/
theorem mem_blk (t : Fin cfg0.N) (i : S32x2048x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result array is in the block of the point of its batch and row tile. -/
theorem cover (i : S32x2048x1024.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 1024 := (i 2).isLt
  have hN := N64
  refine ⟨⟨2 * (i 0).val + (i 1).val / 1024, by omega⟩, flush0_2 _, ?_⟩
  rw [mem_blk]
  obtain ⟨-, -, -, -, -, -, e0, e1, e2⟩ := idx_facts ⟨2 * (i 0).val + (i 1).val / 1024, by omega⟩
  dsimp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 1024 ≤ (i 2).val ∧ (i 2).val < win0_2.index _ (2 : Fin 3) * 1024 + 1024; omega

/-- The result array after the run is the specification of the argument arrays as the region finds them. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.AttnValue

end
-- ==== Proof.RefIsSpec.lean ====
import proofs.«165536_j17746804867735_2_alg».proof.Proof.Gen.ReferenceIdeal.Read
import proofs.«165536_j17746804867735_2_alg».proof.Proof.Spec
import Idealize.ShloMosaic.Lib.ValueIdx
import Idealize.ShloMosaic.PureOps.Ideal.Laws

/-!
  The reference, stage by stage, is the specification. Its softmax takes the maximum of a row (folded from `-∞`, then
  once more joined with `-∞`, which changes nothing), subtracts it, exponentiates, sums the row from zero and divides;
  its batched product contracts the weights of row `(b, r, ·)` with column `(b, ·, h)` of the encodings.
-/

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 : (⟨S32x2048x512, .f32⟩ : BufTy).Contents (Elt Ideal))

/-- The source index the row reductions read for row `(b, r)` and lane `k` is `(b, r, k)`. -/
theorem lift_row (h : S32x2048x512.Reduces [2] S32x2048) (b : Fin 32) (r : Fin 2048) (k : Fin 512) :
    h.lift (ix2 b r) k = ix3 b r k := by
  funext c
  apply Fin.ext
  match c with
  | ⟨0, _⟩ => rfl
  | ⟨1, _⟩ => rfl
  | ⟨2, _⟩ => rfl

/-- The host's maximum over the last axis, at `(b, r)`, is the row's maximum. -/
theorem v0_apply (b : Fin 32) (r : Fin 2048) :
    val_main_v0 (F := Ideal) x0 (ix2 b r) = rowMax (fun k => x0 (ix3 b r k)) := by
  unfold val_main_v0
  have hred : S32x2048x512.Reduces [2] S32x2048 := by decide
  refine (Host.reduce_eq_fold_single (FloatOps.maximumf (F := Ideal) (φ := .f32)) (x0 : S32x2048x512.Idx → Ideal .f32) (val_main_cst (F := Ideal)) reducesTo_S32x2048x512_S32x2048_d2 hred h_S_ (ix2 b r)).trans ?_
  unfold rowMax
  show (Finset.univ : Finset (Fin 512)).fold max (Ideal.ofBits .f32 0xFF800000#32) (x0 ∘ hred.lift (ix2 b r)) = _
  refine congrArg (fun f => (Finset.univ : Finset (Fin 512)).fold max (Ideal.ofBits .f32 0xFF800000#32) f) ?_
  exact funext fun k => congrArg x0 (lift_row hred b r k)

/-- Joined once more with `-∞`, it is still the row's maximum. -/
theorem v2_apply (b : Fin 32) (r : Fin 2048) :
    val_main_v2 (F := Ideal) x0 (ix2 b r) = rowMax (fun k => x0 (ix3 b r k)) := by
  rw [val_main_v2_apply, val_main_v1_apply, val_main_cst_0_apply, v0_apply]
  show max (Ideal.ofBits .f32 0xFF800000#32) (rowMax fun k => x0 (ix3 b r k)) = _
  unfold rowMax
  exact max_init_fold _ _

theorem v4_apply (b : Fin 32) (r : Fin 2048) (k : Fin 512) :
    val_main_v4 (F := Ideal) x0 (ix3 b r k) = rowMax (fun k => x0 (ix3 b r k)) := by
  rw [val_main_v4_apply, val_main_v3_apply]
  have e : idx_main_v3 (idx_main_v4 (ix3 b r k)) = ix2 b r :=
    funext fun a => Fin.ext (by match a with | ⟨0, _⟩ => rfl | ⟨1, _⟩ => rfl)
  rw [e, v2_apply]

theorem v6_apply (b : Fin 32) (r : Fin 2048) (k : Fin 512) :
    val_main_v6 (F := Ideal) x0 (ix3 b r k) = expo (fun k => x0 (ix3 b r k)) k := by
  rw [val_main_v6_apply, val_main_v5_apply, v4_apply]
  rfl

theorem v7_apply (b : Fin 32) (r : Fin 2048) :
    val_main_v7 (F := Ideal) x0 (ix2 b r) = ∑ k' : Fin 512, expo (fun k => x0 (ix3 b r k)) k' := by
  rw [val_main_v7_apply, val_main_cst_1_apply]
  show Ideal.ofBits .f32 0x00000000#32 + _ = _
  rw [Ideal.ofBits_zero_f32, zero_add]
  refine Finset.sum_congr rfl fun k' _ => ?_
  have e : idx_main_v7 (ix2 b r) k' = ix3 b r k' :=
    funext fun a => Fin.ext (by match a with | ⟨0, _⟩ => rfl | ⟨1, _⟩ => rfl | ⟨2, _⟩ => rfl)
  rw [e, v6_apply]

theorem v9_apply (b : Fin 32) (r : Fin 2048) (k : Fin 512) :
    val_main_v9 (F := Ideal) x0 (ix3 b r k) = ∑ k' : Fin 512, expo (fun k => x0 (ix3 b r k)) k' := by
  rw [val_main_v9_apply, val_main_v8_apply]
  have e : idx_main_v8 (idx_main_v9 (ix3 b r k)) = ix2 b r :=
    funext fun a => Fin.ext (by match a with | ⟨0, _⟩ => rfl | ⟨1, _⟩ => rfl)
  rw [e, v7_apply]

theorem v10_apply (b : Fin 32) (r : Fin 2048) (k : Fin 512) :
    val_main_v10 (F := Ideal) x0 (ix3 b r k) = weight (fun k => x0 (ix3 b r k)) k := by
  rw [val_main_v10_apply, v6_apply, v9_apply]
  rfl

/-- The reference's result is the specification of its two arguments. -/
theorem ref_eq (x1 : (⟨S32x512x1024, .f32⟩ : BufTy).Contents (Elt Ideal)) :
    val_main_v11 (F := Ideal) x0 x1 = G x0 x1 := by
  funext i
  obtain ⟨b, r, h, rfl⟩ : ∃ (b : Fin 32) (r : Fin 2048) (h : Fin 1024), i = ix3 b r h := ⟨i 0, i 1, i 2, eq_ix3 i⟩
  rw [val_main_v11_apply, G_apply]
  unfold attnRow
  refine Finset.sum_congr rfl fun k _ => ?_
  have el : lidx_main_v11 (ix3 b r h) k = ix3 b r k :=
    funext fun a => Fin.ext (by match a with | ⟨0, _⟩ => rfl | ⟨1, _⟩ => rfl | ⟨2, _⟩ => rfl)
  have er : ridx_main_v11 (ix3 b r h) k = ix3 b k h :=
    funext fun a => Fin.ext (by match a with | ⟨0, _⟩ => rfl | ⟨1, _⟩ => rfl | ⟨2, _⟩ => rfl)
  rw [el, er, v10_apply]

end Cert.ReferenceIdeal.RefValue

end
-- ==== Proof.lean ====
/-
  Attention of a context over a query: for every batch `b`, context position `c` and feature `h`,
  `out[b, c, h] = ∑ q, softmax(similarity[b, c, ·])[q] * qencode[b, q, h]`,
  the softmax taken with the row's maximum subtracted before exponentiating.

  The kernel walks a grid of 32 batches by 2 row tiles. At each point it takes the softmax of 1024 rows of one batch and
  multiplies the weights with that batch's encodings slab, which it keeps, narrowed, in a scratch it fills only at the
  first row tile of a batch. The reference takes the softmax of the whole array and contracts it with the encodings in
  one batched product. On the extended reals narrowing changes no value, the lane maximum and the lane sum are the
  row's maximum and sum, the kernel's product into a zero accumulator and the host's product are the same contraction,
  and the reference's extra join of the row maximum with `-∞` is the identity. So both result arrays are one function
  of the two argument arrays (`Cert.Attn.G`): the kernel's because the scratch holds the slab of the current batch at
  every point and the written blocks tile the result, the reference's stage by stage. No entry needs to be finite for
  this: both sides are the same term, so the precondition is not used.

  Nothing of the kernel was rewritten for the idealized reading, so that claim is trivial; the three programs run,
  fault-free and leaving their arguments unchanged, by their runs.
-/
import proofs.«165536_j17746804867735_2_alg».proof.Defs
import proofs.«165536_j17746804867735_2_alg».proof.Proof.Gen.Kernel
import proofs.«165536_j17746804867735_2_alg».proof.Proof.Gen.Kernel.Skeleton
import proofs.«165536_j17746804867735_2_alg».proof.Proof.Gen.Kernel.Launch
import proofs.«165536_j17746804867735_2_alg».proof.Proof.Gen.Kernel.Points
import proofs.«165536_j17746804867735_2_alg».proof.Proof.Gen.Kernel.Frame
import proofs.«165536_j17746804867735_2_alg».proof.Proof.Gen.KernelIdeal
import proofs.«165536_j17746804867735_2_alg».proof.Proof.Gen.KernelIdeal.Skeleton
import proofs.«165536_j17746804867735_2_alg».proof.Proof.Gen.KernelIdeal.Launch
import proofs.«165536_j17746804867735_2_alg».proof.Proof.Gen.KernelIdeal.Points
import proofs.«165536_j17746804867735_2_alg».proof.Proof.Gen.KernelIdeal.Frame
import proofs.«165536_j17746804867735_2_alg».proof.Proof.Gen.ReferenceIdeal
import proofs.«165536_j17746804867735_2_alg».proof.Proof.Gen.KernelIdeal.Value
import proofs.«165536_j17746804867735_2_alg».proof.Proof.Gen.ReferenceIdeal.Run
import proofs.«165536_j17746804867735_2_alg».proof.Proof.Gen.ReferenceIdeal.Read
import proofs.«165536_j17746804867735_2_alg».proof.Proof.Gen.Pre_finite_inputs
import proofs.«165536_j17746804867735_2_alg».proof.Proof.KernelValue
import proofs.«165536_j17746804867735_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays end at the specification of the argument arrays, and the arguments agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
